-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x4096x2048 .f32) (main_arg1 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  main_v8
-- ==== Kernel.lean ====
abbrev S4x4096x2048 : Shape := ⟨3, ![4, 4096, 2048]⟩
abbrev S2048 : Shape := ⟨1, ![2048]⟩
abbrev S16384x2048 : Shape := ⟨2, ![16384, 2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 6
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S16384x2048, .f32⟩
  | .hbm, ⟨3, _⟩ => ⟨S1x2048, .f32⟩
  | .hbm, ⟨4, _⟩ => ⟨S16384x2048, .f32⟩
  | .hbm, ⟨5, _⟩ => ⟨S4x4096x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x4096x2048_S16384x2048 : S4x4096x2048.ShapeCasts S16384x2048
  shapeCasts_S2048_S1x2048 : S2048.ShapeCasts S1x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  reduces_S1024x2048_S1024 : S1024x2048.Reduces [1] S1024
  shapeCasts_S1024_S1024x1 : S1024.ShapeCasts S1024x1
  broadcasts_S1024x1_S1024x2048 : S1024x1.Broadcasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S16384x2048_S4x4096x2048 : S16384x2048.ShapeCasts S4x4096x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S16384x2048.size a
  hwx0_2 : ∀ i : grid0.Coords, EltTy.bits .f32 = 32 ∨ (Rect.block (s := S16384x2048) S1024x2048.size (cc0_transform_2 i) (hinb0_2 i)).WholeWords (EltTy.packing .f32)

variable [Facts₀]

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x4096x2048, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S_, .f32⟩
  | .hbm, ⟨7, _⟩ => ⟨S4x4096x1, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S4x4096x1, .f32⟩
  | .hbm, ⟨13, _⟩ => ⟨S4x4096x2048, .f32⟩
  | .hbm, ⟨14, _⟩ => ⟨S4x4096x2048, .f32⟩
  | .hbm, ⟨15, _⟩ => ⟨S1x1x2048, .f32⟩
  | .hbm, ⟨16, _⟩ => ⟨S4x4096x2048, .f32⟩
  | .hbm, ⟨17, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S4x4096x2048_S4x4096_d2 : S4x4096x2048.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x2048_0_1_2 : S4x4096x1.BroadcastsInDim S4x4096x2048 (![0, 1, 2] : Fin 3 → Fin S4x4096x2048.rank)
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)

variable [Facts₀]

class Facts : Prop extends Facts₀ where

variable [Facts]
-- ==== Proof.Spec.lean ====
/-
  The function both programs compute, stated once over literal shapes and importing no program. Every row of 2048 entries
  is scaled by the reciprocal square root of (its mean square + ε) and then, entry by entry, by the gain:
      out[r, d] = x[r, d] · rsqrt ((Σₖ x[r, k]²) / 2048 + ε) · gain[d],
  2048.0 and ε kept as the float words the programs spell (the same words on both sides). `rowNorm` is this over the
  flat [16384, 2048] array with the gain as a [1, 2048] row, `rmsNorm` over the [4, 4096, 2048] array with the gain a
  vector; row (a, b) of the second is row 4096·a + b of the first.
-/
import Idealize.ShloMosaic.Lib.ValueIdx

noncomputable section

namespace Cert.RmsNorm

open Idealize.ShloMosaic Idealize.ShloMosaic.ValueIdx

/-- One normalised entry from its value `v`, its row's sum of squares `S` and its gain `γ`. -/
def entry (v S γ : EReal) : EReal :=
  v * Ideal.rsqrt (Ideal.div S (Ideal.ofBits .f32 0x45000000#32) + Ideal.ofBits .f32 0x3727C5AC#32) * γ

/-- The flat form: row `r` of a [16384, 2048] array against a [1, 2048] gain row. -/
def rowNorm (X : (⟨2, ![16384, 2048]⟩ : Shape).Idx → EReal) (g : (⟨2, ![1, 2048]⟩ : Shape).Idx → EReal) :
    (⟨2, ![16384, 2048]⟩ : Shape).Idx → EReal := fun i =>
  entry (X i) (∑ k : Fin 2048, X (ix2 (n0 := 16384) (i 0) k) * X (ix2 (n0 := 16384) (i 0) k))
    (g (ix2 (0 : Fin 1) (n1 := 2048) (i 1)))

theorem rowNorm_apply (X : (⟨2, ![16384, 2048]⟩ : Shape).Idx → EReal) (g : (⟨2, ![1, 2048]⟩ : Shape).Idx → EReal)
    (r : Fin 16384) (q : Fin 2048) :
    rowNorm X g (ix2 r q) = entry (X (ix2 r q)) (∑ k : Fin 2048, X (ix2 r k) * X (ix2 r k)) (g (ix2 (0 : Fin 1) q)) := rfl

/-- The [4, 4096, 2048] form with the gain a vector: what the certificate's two programs are compared at. -/
def rmsNorm (x : (⟨3, ![4, 4096, 2048]⟩ : Shape).Idx → EReal) (g : (⟨1, ![2048]⟩ : Shape).Idx → EReal) :
    (⟨3, ![4, 4096, 2048]⟩ : Shape).Idx → EReal := fun i =>
  entry (x i) (∑ k : Fin 2048, x (ix3 (n0 := 4) (n1 := 4096) (i 0) (i 1) k) * x (ix3 (n0 := 4) (n1 := 4096) (i 0) (i 1) k))
    (g (ix1 (n := 2048) (i 2)))

theorem rmsNorm_apply (x : (⟨3, ![4, 4096, 2048]⟩ : Shape).Idx → EReal) (g : (⟨1, ![2048]⟩ : Shape).Idx → EReal)
    (a : Fin 4) (b : Fin 4096) (d : Fin 2048) :
    rmsNorm x g (ix3 a b d) = entry (x (ix3 a b d)) (∑ k : Fin 2048, x (ix3 a b k) * x (ix3 a b k)) (g (ix1 d)) := rfl

end Cert.RmsNorm

end
-- ==== Proof.Payload.lean ====
/-
  The kernel body's one stored value read at an entry (p, q) of its [1024, 2048] block: the loaded block's entry times
  the reciprocal square root of (the row's sum of squares / 2048 + ε), times the gain row's entry q. The body's two
  same-shape casts are identities, the lane reduction over axis 1 is the sum over the row, the [1024] → [1024, 1] cast and the
  column broadcast read row p, and the [1, 2048] → [1024, 2048] broadcast reads the gain's one row.
-/
import proofs.«162247_j24455543783487_2_alg».proof.Proof.Gen.KernelIdeal.Skeleton
import proofs.«162247_j24455543783487_2_alg».proof.Proof.Spec
import Idealize.ShloMosaic.Lib.ValueLayout
import Idealize.ShloMosaic.PureOps.Ideal.Laws

noncomputable section

namespace Cert.RmsNorm.Body

open Idealize.ShloMosaic Idealize.ShloMosaic.ValueIdx Cert.KernelIdeal Cert.KernelIdeal.Gen Cert.RmsNorm

/-- A [1024] vector viewed as a [1024, 1] column reads row p at (p, 0): the two have the same row-major position. -/
theorem column_of_vector (v : FVec Ideal S1024 .f32) (p : Fin 1024) :
    shapeCast S1024x1 v shapeCasts_S1024_S1024x1 (ix2 p (0 : Fin 1)) = v (ix1 p) := by
  refine shapeCast_apply v _ (ix2 p (0 : Fin 1)) (ix1 p) ?_
  rw [Shape.rowMajor_val_one, Shape.rowMajor_val_two]
  show p.val = p.val * 1 + 0
  omega

/-- A [1024, 1] column spread over 2048 lanes reads its row p at every (p, q). -/
theorem spread_column (v : FVec Ideal S1024x1 .f32) (p : Fin 1024) (q : Fin 2048) :
    broadcastTo S1024x2048 v broadcasts_S1024x1_S1024x2048 (ix2 p q) = v (ix2 p (0 : Fin 1)) := by
  refine broadcastTo_apply v _ (ix2 p q) (ix2 p (0 : Fin 1)) fun ax => ?_
  match ax with
  | ⟨0, _⟩ => rfl
  | ⟨1, _⟩ => rfl

/-- The lane reduction of a [1024, 2048] block along axis 1, read at row p: the sum over the row (the accumulator is the
    zero word, the sum's neutral element, so nothing is added to it). -/
theorem row_sum (v : FVec Ideal S1024x2048 .f32) (hφ : FKind.Formats .f32) (hacc : (0x00000000#32 : BitVec 32) = FKind.add.neutral .f32 hφ)
    (p : Fin 1024) :
    multiReduction .add [1] S1024 v 0x00000000#32 reduces_S1024x2048_S1024 hφ hacc (ix1 p) = ∑ k : Fin 2048, v (ix2 p k) := by
  refine (Ideal.multiReduction_add_single v 0x00000000#32 reduces_S1024x2048_S1024 hφ hacc (ix1 p)).trans ?_
  refine Finset.sum_congr rfl fun k _ => congrArg v (funext fun a => Fin.ext ?_)
  match a with
  | ⟨0, _⟩ => rfl
  | ⟨1, _⟩ => rfl

/-- THE PAYLOAD AT AN ENTRY. -/
theorem pay_at (x0 : Vec Ideal S1024x2048 .f32) (x1 : Vec Ideal S1x2048 .f32) (p : Fin 1024) (q : Fin 2048) :
    k0_pay1 (F := Ideal) x0 x1 (ix2 p q)
      = entry (x0 (ix2 p q)) (∑ k : Fin 2048, x0 (ix2 p k) * x0 (ix2 p k)) (x1 (ix2 (0 : Fin 1) q)) := by
  unfold k0_pay1 entry
  dsimp only
  refine (mulf_apply _ _ _).trans (congrArg₂ (· * ·) ((mulf_apply _ _ _).trans (congrArg₂ (· * ·) ?_ ?_)) ?_)
  · exact congrFun (shapeCast_self x0 _) _
  · refine (spread_column _ p q).trans ?_
    show Ideal.rsqrt (Ideal.div _ _ + _) = Ideal.rsqrt (Ideal.div _ _ + _)
    refine congrArg (fun S => Ideal.rsqrt (Ideal.div S (Ideal.ofBits .f32 0x45000000#32) + Ideal.ofBits .f32 0x3727C5AC#32)) ?_
    refine (column_of_vector _ p).trans ((row_sum _ _ _ p).trans (Finset.sum_congr rfl fun k _ => ?_))
    refine (mulf_apply _ _ _).trans ?_
    rw [shapeCast_self]
  · exact (broadcastTo_1b_ab_apply _ _ p q).trans (congrFun (shapeCast_self x1 _) _)

end Cert.RmsNorm.Body

end
-- ==== Proof.Blocks.lean ====
/-
  From blocks to the array. Grid point t stages rows 1024·t … 1024·t + 1023 of the flat [16384, 2048] input and of the
  output (all 2048 columns), and the whole [1, 2048] gain row at every point. So what point t writes back is block t of
  ONE function of the arrays the region finds — each row normalised by its own root mean square, then scaled by the
  gain (`rowNorm`) — because a row's sum of squares only reads that row, which lies inside the block. The sixteen
  blocks tile the output: row r is in the block of point r / 1024. Hence the output array ends holding `rowNorm`.
-/
import proofs.«162247_j24455543783487_2_alg».proof.Proof.Gen.KernelIdeal.Frame
import proofs.«162247_j24455543783487_2_alg».proof.Proof.Payload
import Idealize.ShloMosaic.Lib.Pipeline.Value

noncomputable section

namespace Cert.RmsNorm.Blocks

open Idealize.ShloMosaic Idealize.ShloMosaic.TcCoe Idealize.SL.Sem Idealize.ShloMosaic.ValueIdx
open Cert.KernelIdeal Cert.KernelIdeal.Gen Cert.RmsNorm
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The printed index maps over the sixteen points: input and output blocks sit at block row t, block column 0; the gain's
    block never moves. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of point t's block is row 1024·t + p of the array. -/
def rowOf (t : Fin cfg0.N) (p : Fin 1024) : Fin 16384 :=
  ⟨t.val * 1024 + p.val, by have := t.isLt; have hN : cfg0.N = 16 := N_0; omega⟩

/-- The input block at point t, entry (p, q), is the flat input at (1024·t + p, q). -/
theorem input_block_apply (c : Dev nD) (t : Fin cfg0.N) (p : Fin 1024) (q : Fin 2048) :
    (iblk m c 0 t : Vec Ideal S1024x2048 .f32) (ix2 p q) = (V m c main_v0 : S16384x2048.Idx → EReal) (ix2 (rowOf t p) q) := by
  obtain ⟨e0, e1, -⟩ := index_maps t
  unfold iblk
  rw [View.read_apply]
  show V m c main_v0 _ = V m c main_v0 _
  refine congrArg (V m c main_v0) (funext fun a => Fin.ext ?_)
  match a with
  | ⟨0, _⟩ => show win0_0.index t (0 : Fin 2) * 1024 + 1 * p.val = t.val * 1024 + p.val; rw [e0]; omega
  | ⟨1, _⟩ => show win0_0.index t (1 : Fin 2) * 2048 + 1 * q.val = q.val; rw [e1]; omega

/-- The gain block at any point is the whole gain row. -/
theorem gain_block_apply (c : Dev nD) (t : Fin cfg0.N) (q : Fin 2048) :
    (iblk m c 1 t : Vec Ideal S1x2048 .f32) (ix2 (0 : Fin 1) q) = (V m c main_v1 : S1x2048.Idx → EReal) (ix2 (0 : Fin 1) q) := by
  obtain ⟨-, -, e2, e3, -⟩ := index_maps t
  unfold iblk
  rw [View.read_apply]
  show V m c main_v1 _ = V m c main_v1 _
  refine congrArg (V m c main_v1) (funext fun a => Fin.ext ?_)
  match a with
  | ⟨0, _⟩ => show win0_1.index t (0 : Fin 2) * 1 + 1 * 0 = 0; rw [e2]
  | ⟨1, _⟩ => show win0_1.index t (1 : Fin 2) * 2048 + 1 * q.val = q.val; rw [e3]; omega

/-- Entry (p, q) of the output block at point t sits at (1024·t + p, q) of the output array. -/
theorem output_block_emb (t : Fin cfg0.N) (p : Fin 1024) (q : Fin 2048) :
    ((cfg0.win 2).blk t).view.emb (ix2 p q) = (ix2 (rowOf t p) q : S16384x2048.Idx) := by
  obtain ⟨-, -, -, -, e4, e5⟩ := index_maps t
  refine funext fun a => Fin.ext ?_
  match a with
  | ⟨0, _⟩ => show win0_2.index t (0 : Fin 2) * 1024 + 1 * p.val = t.val * 1024 + p.val; rw [e4]; omega
  | ⟨1, _⟩ => show win0_2.index t (1 : Fin 2) * 2048 + 1 * q.val = q.val; rw [e5]; omega

/-- The body's stored value at an entry of the block is `rowNorm` of the arrays at that entry's place in the array. -/
theorem block_entry (c : Dev nD) (t : Fin cfg0.N) (j : S1024x2048.Idx) :
    k0_pay1 (F := Ideal) (iblk m c 0 t) (iblk m c 1 t) j
      = rowNorm (V m c main_v0) (V m c main_v1) (((cfg0.win 2).blk t).view.emb j) := by
  obtain ⟨p, q, rfl⟩ : ∃ (p : Fin 1024) (q : Fin 2048), j = ix2 p q := ⟨j 0, j 1, eq_ix2 j⟩
  rw [output_block_emb, rowNorm_apply]
  refine (Body.pay_at (iblk m c 0 t) (iblk m c 1 t) p q).trans ?_
  simp only [input_block_apply m c t, gain_block_apply m c t]

/-- WHAT POINT t WRITES BACK is block t of `rowNorm` of the arrays as the region finds them. -/
theorem flushed_eq (c : Dev nD) (t : Fin cfg0.N) :
    (dats m 0 c).flushed 2 t = ((cfg0.win 2).blk t).view.read (Elt Ideal) (rowNorm (V m c main_v0) (V m c main_v1)) := by
  show (cfg0.win 2).cut (grid0.coords t) ((dats m 0 c).after 2 t) = _
  rw [after0_2]
  unfold out0_2
  rw [View.canon_unit_zero zero_offsets]
  simp only [View.ld_unit_zero (S := S1024x2048) zero_offsets, View.ld_unit_zero (S := S1x2048) zero_offsets]
  funext j
  exact block_entry m c t j

/-- An index of the output array is in point t's block iff each coordinate is in the block's range on its axis. -/
theorem mem_block (t : Fin cfg0.N) (i : S16384x2048.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v2).slice (win0_2.rect t)).set ↔ _
  rw [View.set_slice_whole, Rect.mem_set_unit]
  exact Iff.rfl

/-- The sixteen blocks tile the output: row r lies in the block of point r / 1024. -/
theorem blocks_cover (i : S16384x2048.Idx) :
    ∃ t : Fin cfg0.N, (cfg0.win 2).flush t = true ∧ i ∈ ((cfg0.win 2).blk t).view.set := by
  have hN : cfg0.N = 16 := N_0
  have hi0 : (i 0).val < 16384 := (i 0).isLt
  have hi1 : (i 1).val < 2048 := (i 1).isLt
  obtain ⟨t, ht⟩ : ∃ t : Fin cfg0.N, t.val = (i 0).val / 1024 := ⟨⟨(i 0).val / 1024, by omega⟩, rfl⟩
  obtain ⟨-, -, -, -, e4, e5⟩ := index_maps t
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; rw [e4, ht]; omega
  | ⟨1, _⟩ => show win0_2.index t (1 : Fin 2) * 2048 ≤ (i 1).val ∧ (i 1).val < win0_2.index t (1 : Fin 2) * 2048 + 2048; rw [e5]; omega

/-- THE OUTPUT ARRAY after the run is `rowNorm` of the flat input and the gain row as the region finds them. -/
theorem final (c : Dev nD) : (dats m 0 c).arrAt 2 cfg0.N = rowNorm (V m c main_v0) (V m c main_v1) :=
  (dats m 0 c).arrAt_eq_of_cover 2 (rowNorm (V m c main_v0) (V m c main_v1)) (fun t _ => flushed_eq m c t) blocks_cover

end Cert.RmsNorm.Blocks

end
-- ==== Proof.KernelValue.lean ====
/-
  The kernel program's result as one function of its two arguments. The host flattens x : [4, 4096, 2048] to
  [16384, 2048] (row (a, b) becomes row 4096·a + b: same row-major position) and views the gain [2048] as a [1, 2048]
  row; the region leaves `rowNorm` of those in its output array; the host views that array as [4, 4096, 2048] again.
  Read at (a, b, d): the flat row 4096·a + b is exactly row (a, b) of x, so its sum of squares is the sum over k of
  x[a, b, k]², and the result is `rmsNorm x gain` at (a, b, d).
-/
import proofs.«162247_j24455543783487_2_alg».proof.Proof.Blocks
import Idealize.ShloMosaic.Lib.StableHlo.Run
import Idealize.ShloMosaic.Lib.Tactic

noncomputable section

namespace Cert.RmsNorm.KernelValue

open Idealize.ShloMosaic Idealize.ShloMosaic.TcCoe Idealize.SL.Sem Idealize.ShloMosaic.ValueIdx
open Cert.KernelIdeal Cert.KernelIdeal.Gen Cert.RmsNorm
open Idealize.ShloMosaic.Pipeline (Dat)

variable (m : (ℓ : Loc nD τ sig) → Buf (Elt Ideal) ℓ) (ρ : Dev nD → PrngReg)

/-- Row (a, b) of the [4, 4096, 2048] array is row 4096·a + b of the flat one. -/
def flatRow (a : Fin 4) (b : Fin 4096) : Fin 16384 := ⟨a.val * 4096 + b.val, by omega⟩

/-- The flat view of x read at (4096·a + b, k) is x at (a, b, k). -/
theorem flatten_apply (x : S4x4096x2048.Idx → EReal) (a : Fin 4) (b : Fin 4096) (k : Fin 2048) :
    shapeCast S16384x2048 x shapeCasts_S4x4096x2048_S16384x2048 (ix2 (flatRow a b) k) = x (ix3 a b k) := by
  refine shapeCast_apply x _ (ix2 (flatRow a b) k) (ix3 a b k) ?_
  rw [Shape.rowMajor_val_two, Shape.rowMajor_val_three]
  rfl

/-- The [4, 4096, 2048] view of a flat array read at (a, b, d) is the flat array at (4096·a + b, d). -/
theorem unflatten_apply (A : S16384x2048.Idx → EReal) (a : Fin 4) (b : Fin 4096) (d : Fin 2048) :
    shapeCast S4x4096x2048 A shapeCasts_S16384x2048_S4x4096x2048 (ix3 a b d) = A (ix2 (flatRow a b) d) := by
  refine shapeCast_apply A _ (ix3 a b d) (ix2 (flatRow a b) d) ?_
  rw [Shape.rowMajor_val_two, Shape.rowMajor_val_three]
  rfl

/-- The gain viewed as a [1, 2048] row read at (0, q) is the gain at q. -/
theorem gain_row_apply (g : S2048.Idx → EReal) (q : Fin 2048) :
    shapeCast S1x2048 g shapeCasts_S2048_S1x2048 (ix2 (0 : Fin 1) q) = g (ix1 q) := by
  refine shapeCast_apply g _ (ix2 (0 : Fin 1) q) (ix1 q) ?_
  rw [Shape.rowMajor_val_one, Shape.rowMajor_val_two]
  show q.val = 0 * 2048 + q.val
  omega

/-- The flat input the region finds is the host's flat view of the first argument. -/
theorem flat_input (c : Dev nD) :
    (V m c main_v0 : S16384x2048.Idx → EReal)
      = shapeCast S16384x2048 (m ((c : Thread nD τ).loc main_arg0)) shapeCasts_S4x4096x2048_S16384x2048 := by
  show StableHlo.after hostOps0 (fun b => m (c, b)) (Proc.devRef .tc main_v0) = _
  after_results
  rfl

/-- The gain row the region finds is the host's [1, 2048] view of the second argument. -/
theorem gain_row (c : Dev nD) :
    (V m c main_v1 : S1x2048.Idx → EReal)
      = shapeCast S1x2048 (m ((c : Thread nD τ).loc main_arg1)) shapeCasts_S2048_S1x2048 := by
  show StableHlo.after hostOps0 (fun b => m (c, b)) (Proc.devRef .tc main_v1) = _
  after_results
  rfl

/-- The program's result buffer after the host line that follows the region: the [4, 4096, 2048] view of what the region
    left in its output array. -/
theorem result_view (c : Dev nD) :
    (Pipeline.afterTail₀ cfgs (dats m) 0 (V0 m) [hostOps1] c main_v3 : S4x4096x2048.Idx → EReal)
      = shapeCast S4x4096x2048 (rowNorm (V m c main_v0) (V m c main_v1)) shapeCasts_S16384x2048_S4x4096x2048 := by
  unfold Pipeline.afterTail₀
  show StableHlo.after hostOps1 _ (Proc.devRef .tc main_v3) = _
  after_results
  exact congrArg (fun A : S16384x2048.Idx → EReal => shapeCast S4x4096x2048 A shapeCasts_S16384x2048_S4x4096x2048)
    ((Pipeline.withArrays_arr spec0 launch0.win.arr_inj c _ _ 2).trans (Blocks.final m c))

/-- THE KERNEL PROGRAM'S RESULT is `rmsNorm` of its two arguments. -/
theorem result_eq (c : Dev nD) :
    (Pipeline.afterTail₀ cfgs (dats m) 0 (V0 m) [hostOps1] c main_v3 : S4x4096x2048.Idx → EReal)
      = rmsNorm (m ((c : Thread nD τ).loc main_arg0)) (m ((c : Thread nD τ).loc main_arg1)) := by
  rw [result_view, flat_input, gain_row]
  funext i
  obtain ⟨a, b, d, rfl⟩ : ∃ (a : Fin 4) (b : Fin 4096) (d : Fin 2048), i = ix3 a b d := ⟨i 0, i 1, i 2, eq_ix3 i⟩
  rw [unflatten_apply, rowNorm_apply, rmsNorm_apply]
  refine congr (congr (congrArg entry ?_) ?_) ?_
  · exact flatten_apply _ a b d
  · exact Finset.sum_congr rfl fun k _ => congrArg₂ (· * ·) (flatten_apply _ a b k) (flatten_apply _ a b k)
  · exact gain_row_apply _ d

/-- The run, read: every weakly fair execution ends with the result buffer at `rmsNorm` of the arguments and the
    arguments as launched. -/
theorem run : θ_run defs (onTc (τ := τ) (main (F := Ideal))) ⟨m, fun _ => 0, ρ⟩ fun r => ∀ c : Dev nD,
      r.2.mem ((c.tc : Thread nD τ).loc main_v3) = rmsNorm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.RmsNorm.KernelValue

end
-- ==== Proof.LibRmsLaw.lean ====
/-
  A row of extended reals normalised by its root mean square, written two ways — the row times the reciprocal square
  root of (mean square + ε), and the row divided by the square root of the same — agree at EVERY extended real, finite or
  not. The mean square of any row is in [0, ⊤] (a square is never negative: both infinities square to ⊤), so with ε a
  positive real the quantity t = mean square + ε is in (0, ⊤]; for a positive real t, rsqrt t is the real (√t)⁻¹ and
  x / √t is x · (√t)⁻¹ by definition, and at t = ⊤ both sides are x · 0. Nothing here looks at a program: the float words
  2048.0 and the one nearest 1e-5 are read as the reals they denote, and the rest is order and arithmetic on EReal.
-/
import Idealize.ShloMosaic.PureOps.Ideal.Laws

noncomputable section

namespace Cert.RmsLaw

open Idealize.ShloMosaic

/-- The float word `2048.0` denotes the real 2048. -/
theorem ofBits_2048 : Ideal.ofBits .f32 0x45000000#32 = ((2048 : ℝ) : EReal) := by
  simp [Ideal.ofBits, Ideal.ieee, -EReal.coe_mul]; norm_num

/-- The float word nearest `1e-5` (sign 0, exponent 110, fraction 2606508) denotes 10995116 · 2⁻⁴⁰. -/
theorem ofBits_eps : Ideal.ofBits .f32 0x3727C5AC#32 = ((10995116 * (2 : ℝ) ^ (-40 : Int) : ℝ) : EReal) := by
  simp [Ideal.ofBits, Ideal.ieee, -EReal.coe_mul]

/-- … which is a positive real. -/
theorem eps_pos : (0 : EReal) < Ideal.ofBits .f32 0x3727C5AC#32 := by
  rw [ofBits_eps]; exact EReal.coe_pos.mpr (by positivity)

/-- A square of an extended real is nonnegative: the two factors have the same sign. -/
theorem mul_self_nonneg (x : EReal) : 0 ≤ x * x :=
  EReal.mul_nonneg_iff.mpr ((le_total 0 x).imp (fun h => ⟨h, h⟩) (fun h => ⟨h, h⟩))

/-- So is a sum of squares. -/
theorem sum_mul_self_nonneg {ι : Type} (s : Finset ι) (f : ι → EReal) : 0 ≤ ∑ k ∈ s, f k * f k :=
  Finset.sum_nonneg fun k _ => mul_self_nonneg (f k)

/-- A nonnegative extended real divided by 2048, plus ε, is above zero (it may be ⊤). -/
theorem mean_add_eps_pos {S : EReal} (hS : 0 ≤ S) :
    0 < Ideal.div S (Ideal.ofBits .f32 0x45000000#32) + Ideal.ofBits .f32 0x3727C5AC#32 := by
  rw [ofBits_2048, Ideal.div_coe (by norm_num : (2048 : ℝ) ≠ 0)]
  have h : (0 : EReal) ≤ S * ((1 / 2048 : ℝ) : EReal) := EReal.mul_nonneg hS (EReal.coe_nonneg.mpr (by norm_num))
  exact lt_of_lt_of_le eps_pos (le_add_of_nonneg_left h)

/-- THE LAW: above zero, multiplying by the reciprocal square root is dividing by the square root, for every
    extended real numerator. -/
theorem mul_rsqrt_eq_div_sqrt {t : EReal} (ht : 0 < t) (x : EReal) : x * Ideal.rsqrt t = Ideal.div x (Ideal.sqrt t) := by
  induction t using EReal.rec with
  | bot => exact absurd ht (not_lt.mpr bot_le)
  | coe r =>
    have hr : 0 < r := EReal.coe_pos.mp ht
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div, if_neg (by exact_mod_cast hs), EReal.coe_inv]
  | top =>
    rw [Ideal.rsqrt_top, Ideal.sqrt_top, Ideal.div, if_neg EReal.top_ne_zero, EReal.inv_top]

/-- The two spellings of a root-mean-square normalised entry: `x · rsqrt (S / 2048 + ε)` and `x / √((0 + S) / 2048 + ε)`,
    `S` any nonnegative extended real (a sum of squares), the second sum started from the zero word. -/
theorem entry_eq {S : EReal} (hS : 0 ≤ S) (x : EReal) :
    x * Ideal.rsqrt (Ideal.div S (Ideal.ofBits .f32 0x45000000#32) + Ideal.ofBits .f32 0x3727C5AC#32)
      = Ideal.div x (Ideal.sqrt (Ideal.div (Ideal.ofBits .f32 0x00000000#32 + S) (Ideal.ofBits .f32 0x45000000#32)
          + Ideal.ofBits .f32 0x3727C5AC#32)) := by
  rw [Ideal.ofBits_zero_f32, zero_add]
  exact mul_rsqrt_eq_div_sqrt (mean_add_eps_pos hS) x

end Cert.RmsLaw

end
-- ==== Proof.RefValue.lean ====
/-
  The reference program's result is the same function. Read one operation at a time at (a, b, d), the reference is
      (x[a, b, d] / √((0 + Σₖ x[a, b, k]²) / 2048 + ε)) · gain[d],
  where the kernel's form has x[a, b, d] · rsqrt ((Σₖ x[a, b, k]²) / 2048 + ε). A sum of squares of extended reals is
  never negative, so the quantity under the root is above zero, and there the two spellings agree for every numerator.
-/
import proofs.«162247_j24455543783487_2_alg».proof.Proof.Gen.ReferenceIdeal.Read
import proofs.«162247_j24455543783487_2_alg».proof.Proof.Spec
import proofs.«162247_j24455543783487_2_alg».proof.Proof.LibRmsLaw

noncomputable section

namespace Cert.RmsNorm.RefValue

open Idealize.ShloMosaic Idealize.ShloMosaic.ValueIdx Cert.ReferenceIdeal Cert.ReferenceIdeal.Read Cert.RmsNorm

/-- The reduced row of entry (a, b, d), at its k-th summand, is x at (a, b, k). -/
theorem row_index (a : Fin 4) (b : Fin 4096) (d k : Fin 2048) :
    idx_main_v1 (idx_main_v2 (idx_main_v8 (ix3 a b d))) k = ix3 a b k :=
  funext fun ax => Fin.ext (by match ax with | ⟨0, _⟩ => rfl | ⟨1, _⟩ => rfl | ⟨2, _⟩ => rfl)

/-- The gain entry broadcast to (a, b, d) is the gain at d. -/
theorem gain_index (a : Fin 4) (b : Fin 4096) (d : Fin 2048) :
    idx_main_v10 (idx_main_v11 (ix3 a b d)) = ix1 d :=
  funext fun ax => Fin.ext (by match ax with | ⟨0, _⟩ => rfl)

/-- THE REFERENCE'S RESULT is `rmsNorm` of its two arguments. -/
theorem result_eq (x : (⟨S4x4096x2048, .f32⟩ : BufTy).Contents (Elt Ideal)) (g : (⟨S2048, .f32⟩ : BufTy).Contents (Elt Ideal)) :
    val_main_v12 (F := Ideal) x g = rmsNorm x g := by
  funext i
  obtain ⟨a, b, d, rfl⟩ : ∃ (a : Fin 4) (b : Fin 4096) (d : Fin 2048), i = ix3 a b d := ⟨i 0, i 1, i 2, eq_ix3 i⟩
  rw [rmsNorm_apply, val_main_v12_apply, val_main_v9_apply, val_main_v8_apply, val_main_v7_apply, val_main_v6_apply,
    val_main_v4_apply, val_main_v2_apply, val_main_v1_apply, val_main_v3_apply, val_main_v5_apply, val_main_v11_apply,
    val_main_v10_apply]
  simp only [val_main_cst_apply, val_main_cst_0_apply, val_main_cst_1_apply, val_main_v0_apply, row_index, gain_index,
    Ideal.mulf_def, Ideal.addf_def, Ideal.hostDivf_def, Ideal.hostUnary_sqrt_def, Ideal.ofBits_def]
  unfold entry
  rw [RmsLaw.entry_eq (RmsLaw.sum_mul_self_nonneg Finset.univ fun k => x (ix3 a b k))]

end Cert.RmsNorm.RefValue

end
-- ==== Proof.lean ====
/-
  RMS normalisation over the last axis: a Pallas kernel against its jnp reference, equal as extended reals.

  The kernel flattens x : [4, 4096, 2048] to 16384 rows, and in sixteen grid points of 1024 rows each computes, for every
  row, x · rsqrt (mean(x²) + ε) · gain; the reference computes (x / √(mean(x²) + ε)) · gain on the unflattened array. Both
  take the mean as the row's sum of squares divided by the same word 2048.0 and add the same word ε (the float nearest 1e-5).

  Why the two agree at every extended real, infinite inputs included: a square is never negative (both infinities square
  to ⊤), so a row's sum of squares S is in [0, ⊤] and t = S / 2048 + ε is in (0, ⊤]. For a positive real t, rsqrt t is
  the real (√t)⁻¹ and v / √t is v · (√t)⁻¹ by definition of the quotient; at t = ⊤ both sides are v · 0. So the proof
  never uses that the inputs are finite.

  The pieces: the law and the two float words as reals (LibRmsLaw); the common function `rmsNorm` (Spec); the kernel
  body's stored value at an entry (Payload); each grid point writes block t of one whole-array function and the blocks
  tile the output (Blocks); the host's flattening before the region and unflattening after it read at an index, and the
  kernel program's run (KernelValue); the reference read one operation at a time and joined by the law (RefValue). The
  three frames are the generated ones, and the idealisation rewrote nothing, so `preserves` is `True`.
-/
import proofs.«162247_j24455543783487_2_alg».proof.Defs
import proofs.«162247_j24455543783487_2_alg».proof.Proof.Gen.Kernel
import proofs.«162247_j24455543783487_2_alg».proof.Proof.Gen.Kernel.Skeleton
import proofs.«162247_j24455543783487_2_alg».proof.Proof.Gen.Kernel.Launch
import proofs.«162247_j24455543783487_2_alg».proof.Proof.Gen.Kernel.Points
import proofs.«162247_j24455543783487_2_alg».proof.Proof.Gen.Kernel.Frame
import proofs.«162247_j24455543783487_2_alg».proof.Proof.Gen.KernelIdeal
import proofs.«162247_j24455543783487_2_alg».proof.Proof.Gen.KernelIdeal.Skeleton
import proofs.«162247_j24455543783487_2_alg».proof.Proof.Gen.KernelIdeal.Launch
import proofs.«162247_j24455543783487_2_alg».proof.Proof.Gen.KernelIdeal.Points
import proofs.«162247_j24455543783487_2_alg».proof.Proof.Gen.KernelIdeal.Frame
import proofs.«162247_j24455543783487_2_alg».proof.Proof.Gen.ReferenceIdeal
import proofs.«162247_j24455543783487_2_alg».proof.Proof.Gen.Pre_finite_inputs
import proofs.«162247_j24455543783487_2_alg».proof.Proof.Gen.ReferenceIdeal.Run
import proofs.«162247_j24455543783487_2_alg».proof.Proof.Gen.ReferenceIdeal.Read
import proofs.«162247_j24455543783487_2_alg».proof.Proof.KernelValue
import proofs.«162247_j24455543783487_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as launched. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals, from memories that agree on x and the gain, both programs end with their result buffer at
    `rmsNorm x gain`: the kernel by its blocks and the two reshapes, the reference by the law that joins
    v · rsqrt t and v / √t above zero. -/
theorem algebraic : Cert.algebraic_KernelIdeal_ReferenceIdeal := by
  intro m ρ m' ρ' _ hagree
  refine ⟨fun c => Cert.RmsNorm.rmsNorm (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.RmsNorm.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.RmsNorm.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
